-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S256x256 .f32) (main_arg4 : FVec F S256 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x256 : Shape := ⟨2, ![128, 256]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩

abbrev nBuf : Space → Nat
  | .hbm => 41
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .i1⟩
  | .hbm, ⟨36, _⟩ => ⟨S100000x128, .i1⟩
  | .hbm, ⟨37, _⟩ => ⟨S100000x128, .f32⟩
  | .hbm, ⟨38, _⟩ => ⟨S128x256, .f32⟩
  | .hbm, ⟨39, _⟩ => ⟨S128x256, .f32⟩
  | .hbm, ⟨40, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S256x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  slices_S256x256_S128x256_0_0 : S256x256.Slices ![0, 0] S128x256
  slices_S256x256_S128x256_128_0 : S256x256.Slices ![128, 0] S128x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .i1⟩
  | .hbm, ⟨36, _⟩ => ⟨S100000x128, .i1⟩
  | .hbm, ⟨37, _⟩ => ⟨S100000x128, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The node-wise network of the neighbour mixer, as ONE function of arrays of extended reals.

  For node `r` with embedding row `e r` and neighbour-mean row `n r` (both of length 128), first-layer weights
  `w1 : [256, 256]` read as an upper half (rows 0 … 127, which meet the embedding) and a lower half (rows 128 … 255, which meet
  the neighbour mean), first bias `b1`, second-layer weights `w2 : [256, 128]` and second bias `b2`:

      hiddenUnit r k = max ((Σ_{d<128} e(r,d) · w1(d,k)  +  Σ_{d<128} n(r,d) · w1(128+d,k))  +  b1 k)  0
      out r q    = Σ_{k<256} hiddenUnit r k · w2(k,q)  +  b2 q

  This is how a program that multiplies the two halves apart computes it. A program that first joins the two rows into
  one row `cat r` of length 256 (`cat(r,j) = e(r,j)` for `j < 128`, `n(r,j-128)` beyond) and multiplies once computes
  `Σ_{j<256} cat(r,j) · w1(j,k)` in place of the two half sums; the two agree because a sum over 256 terms is the sum of
  its first 128 terms plus the sum of its last 128 (`sum_halves`) — addition on the extended reals is commutative and
  associative, so this holds with infinite terms too and no finiteness of the inputs is needed (`joined_eq_halves`).
-/
import Idealize.ShloMosaic.PureOps.Ideal
import Idealize.ShloMosaic.Lib.ValueIdx

noncomputable section

namespace Cert.NeighborMixer

open Idealize.ShloMosaic Idealize.ShloMosaic.ValueIdx

/-- Node rows: 100000 nodes, 128 features. -/
abbrev SNodes : Shape := ⟨2, ![100000, 128]⟩
/-- The first layer's weights, 256 inputs (embedding then neighbour mean) by 256 hidden units. -/
abbrev SW1 : Shape := ⟨2, ![256, 256]⟩
abbrev SB1 : Shape := ⟨1, ![256]⟩
/-- The second layer's weights, 256 hidden units by 128 outputs. -/
abbrev SW2 : Shape := ⟨2, ![256, 128]⟩
abbrev SB2 : Shape := ⟨1, ![128]⟩

/-- Row `d` of the upper half of a 256-row matrix. -/
abbrev upper (d : Fin 128) : Fin 256 := ⟨d.val, by have := d.isLt; omega⟩
/-- Row `d` of the lower half of a 256-row matrix: row `128 + d`. -/
abbrev lower (d : Fin 128) : Fin 256 := ⟨128 + d.val, by have := d.isLt; omega⟩

/-- A sum of 256 terms is the sum of the first 128 plus the sum of the last 128, in any commutative monoid. -/
theorem sum_halves {M : Type*} [AddCommMonoid M] (f : Fin 256 → M) :
    ∑ j : Fin 256, f j = ∑ d : Fin 128, f (upper d) + ∑ d : Fin 128, f (lower d) :=
  Fin.sum_univ_add (a := 128) (b := 128) f

/-- Hidden unit `k` of node `r`: the two half products added, the bias added, clamped below at zero. -/
def hiddenUnit (e n : SNodes.Idx → EReal) (w1 : SW1.Idx → EReal) (b1 : SB1.Idx → EReal) (r : Fin 100000) (k : Fin 256) : EReal :=
  max ((∑ d : Fin 128, e (ix2 r d) * w1 (ix2 (upper d) k) + ∑ d : Fin 128, n (ix2 r d) * w1 (ix2 (lower d) k)) + b1 (ix1 k))
    (Ideal.ofBits .f32 0x00000000#32)

/-- Output feature `q` of node `r`. -/
def outAt (e n : SNodes.Idx → EReal) (w1 : SW1.Idx → EReal) (b1 : SB1.Idx → EReal) (w2 : SW2.Idx → EReal) (b2 : SB2.Idx → EReal)
    (r : Fin 100000) (q : Fin 128) : EReal :=
  ∑ k : Fin 256, hiddenUnit e n w1 b1 r k * w2 (ix2 k q) + b2 (ix1 q)

/-- The whole output array. -/
def mlp (e n : SNodes.Idx → EReal) (w1 : SW1.Idx → EReal) (b1 : SB1.Idx → EReal) (w2 : SW2.Idx → EReal) (b2 : SB2.Idx → EReal) :
    SNodes.Idx → EReal :=
  fun i => outAt e n w1 b1 w2 b2 (i 0) (i 1)

theorem mlp_apply (e n : SNodes.Idx → EReal) (w1 : SW1.Idx → EReal) (b1 : SB1.Idx → EReal) (w2 : SW2.Idx → EReal) (b2 : SB2.Idx → EReal)
    (r : Fin 100000) (q : Fin 128) : mlp e n w1 b1 w2 b2 (ix2 r q) = outAt e n w1 b1 w2 b2 r q := rfl

/-- The joined row's product with the whole weight matrix is the two half products added: for any row `cat` of 256 entries
    whose first 128 are `e`'s and whose last 128 are `n`'s. -/
theorem joined_eq_halves (e n : SNodes.Idx → EReal) (w1 : SW1.Idx → EReal) (r : Fin 100000) (k : Fin 256) (cat : Fin 256 → EReal)
    (hu : ∀ d : Fin 128, cat (upper d) = e (ix2 r d)) (hl : ∀ d : Fin 128, cat (lower d) = n (ix2 r d)) :
    ∑ j : Fin 256, cat j * w1 (ix2 j k)
      = ∑ d : Fin 128, e (ix2 r d) * w1 (ix2 (upper d) k) + ∑ d : Fin 128, n (ix2 r d) * w1 (ix2 (lower d) k) := by
  rw [sum_halves]
  refine congrArg₂ (· + ·) (Finset.sum_congr rfl fun d _ => ?_) (Finset.sum_congr rfl fun d _ => ?_)
  · rw [hu d]
  · rw [hl d]

end Cert.NeighborMixer

end
-- ==== Proof.KernelHost.lean ====
/-
  What the host computes before the kernel is launched, as the kernel's region finds it.

  Three of the kernel's operands are not arguments of the program but values the host computes first:
  * the NEIGHBOUR MEAN: for every edge the embedding row of its source node is gathered (a negative source index counted
    from the end), the gathered rows are added up per destination node, each node's sum is divided by the number of edges
    that end at it (at least one), and a node no edge ends at keeps its own embedding row;
  * the UPPER and LOWER halves of the first layer's weights: rows 0 … 127 and rows 128 … 255 of the 256 × 256 matrix.
  The neighbour mean is carried as one function `neighborMean` of the embedding and the two edge arrays; nothing below opens it.
-/
import proofs.«119798_j19610820674005_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Mixer

open Cert.KernelIdeal Cert.KernelIdeal.Gen Idealize.ShloMosaic Idealize.ShloMosaic.TcCoe Idealize.SL.Sem Idealize.ShloMosaic.StableHlo
open Idealize.ShloMosaic.ValueIdx

/-- The neighbour mean of every node, from the embeddings `emb`, the edges' source nodes `src` and destination nodes `dst`:
    where the count of edges ending at the node is zero, the node's own row; elsewhere the sum of the gathered source rows
    divided by the count (the count clamped below at one). -/
def neighborMean (emb : (⟨S100000x128, .f32⟩ : BufTy).Contents (Elt Ideal)) (src dst : (⟨S1600000, .i32⟩ : BufTy).Contents (Elt Ideal)) :
    (⟨S100000x128, .f32⟩ : BufTy).Contents (Elt Ideal) :=
  select
    (broadcastInDim S100000x128 ![0, 1] bcast_S100000x1_S100000x128_0_1
      (cmpf (F := Ideal) .oeq
        (broadcastInDim S100000x1 ![0] bcast_S100000_S100000x1_0
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32))))
        (broadcastInDim S100000x1 ![] bcast_S_S100000x1 (constant (F := Ideal) S_ .f32 0x00000000#32))))
    emb
    (Host.divf (F := Ideal)
      (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (Host.gather gather_S100000x128_S1600000x1_S1600000x128_1_0_n_n_0_1_1128 emb
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src))))
      (broadcastInDim S100000x128 ![0, 1] bcast_S100000x1_S100000x128_0_1
        (broadcastInDim S100000x1 ![0] bcast_S100000_S100000x1_0
          (maximumf (F := Ideal)
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0 dst)
              (broadcastInDim S1600000 ![] bcast_S_S1600000 (constant (F := Ideal) S_ .f32 0x3F800000#32)))
            (broadcastInDim S100000 ![] bcast_S_S100000 (constant (F := Ideal) S_ .f32 0x3F800000#32))))))

variable (m : (ℓ : Loc nD τ sig) → Buf (Elt Ideal) ℓ)

set_option maxRecDepth 8192 in
set_option maxHeartbeats 400000 in
/-- The kernel's second operand, as the region finds it, is the neighbour mean of the argument arrays. -/
theorem V_neighborMean (c : Dev nD) :
    (V m c main_v22 : (⟨S100000x128, .f32⟩ : BufTy).Contents (Elt Ideal))
      = neighborMean (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  unfold neighborMean
  -- the called function's values are carried at their buffers' types: each transport is along an equation between equal
  -- types, so it is the identity; the operations underneath are then the same, argument by argument
  refine (eq_of_heq (cast_heq _ _)).trans ?_
  refine congr (congr (congrArg select ?_) ?_) ?_
  · refine (eq_of_heq (cast_heq _ _)).trans ((eq_of_heq (cast_heq _ _)).trans ?_)
    refine congr rfl ?_
    exact eq_of_heq (cast_heq _ _)
  · exact eq_of_heq (cast_heq _ _)
  · exact eq_of_heq (cast_heq _ _)

/-- The kernel's third operand is the upper half of the first layer's weights … -/
theorem V_upperHalf (c : Dev nD) :
    (V m c main_v23 : (⟨S128x256, .f32⟩ : BufTy).Contents (Elt Ideal))
      = extractStridedSlice S128x256 ![0, 0] (m ((c : Thread nD τ).loc main_arg3)) slices_S256x256_S128x256_0_0 := by
  dsimp only [V]
  simp only [hostOps0, hostOps0_1, hostOps0_2, List.flatten_cons, List.flatten_nil, List.append_nil, List.cons_append, List.nil_append]
  after_results

/-- … and its fourth the lower half. -/
theorem V_lowerHalf (c : Dev nD) :
    (V m c main_v24 : (⟨S128x256, .f32⟩ : BufTy).Contents (Elt Ideal))
      = extractStridedSlice S128x256 ![128, 0] (m ((c : Thread nD τ).loc main_arg3)) slices_S256x256_S128x256_128_0 := by
  dsimp only [V]
  simp only [hostOps0, hostOps0_1, hostOps0_2, List.flatten_cons, List.flatten_nil, List.append_nil, List.cons_append, List.nil_append]
  after_results

/-- Row `d`, column `k` of the upper half is row `d` of the whole matrix. -/
theorem upperHalf_apply (w : (⟨S256x256, .f32⟩ : BufTy).Contents (Elt Ideal)) (d : Fin 128) (k : Fin 256) :
    extractStridedSlice S128x256 ![0, 0] w slices_S256x256_S128x256_0_0 (ix2 d k) = w (ix2 (⟨d.val, by have := d.isLt; omega⟩ : Fin 256) k) :=
  extractStridedSlice_apply _ w _ (ix2 d k) _ fun a => by
    match a with
    | ⟨0, _⟩ => show d.val = 0 + d.val; omega
    | ⟨1, _⟩ => show k.val = 0 + k.val; omega

/-- Row `d`, column `k` of the lower half is row `128 + d` of the whole matrix. -/
theorem lowerHalf_apply (w : (⟨S256x256, .f32⟩ : BufTy).Contents (Elt Ideal)) (d : Fin 128) (k : Fin 256) :
    extractStridedSlice S128x256 ![128, 0] w slices_S256x256_S128x256_128_0 (ix2 d k) = w (ix2 (⟨128 + d.val, by have := d.isLt; omega⟩ : Fin 256) k) :=
  extractStridedSlice_apply _ w _ (ix2 d k) _ fun a => by
    match a with
    | ⟨0, _⟩ => show 128 + d.val = 128 + d.val; rfl
    | ⟨1, _⟩ => show k.val = 0 + k.val; omega

end Cert.KernelIdeal.Mixer

end
-- ==== Proof.KernelPoint.lean ====
/-
  One grid point of the kernel, read at an index.

  At a grid point the body holds a block of 5000 node rows `x0` (embeddings) and `x1` (neighbour means), the two halves
  `x2`, `x3` of the first layer's weights (each 128 × 256), the first bias `x4`, the second layer's weights `x5` (256 × 128)
  and the second bias `x6`. What it stores for row `p` of the block and output feature `q` is

      Σ_{k<256} max ((Σ_{d<128} x0(p,d) · x2(d,k) + Σ_{d<128} x1(p,d) · x3(d,k)) + x4 k) 0 · x5(k,q)  +  x6 q .

  On the extended reals a change of float format is the identity, a matrix product into a zero accumulator is the plain sum of
  products over the contracted axis, a bias cast to one row and broadcast over the rows reads the bias at the column, and the
  clamp is `max` with zero.
-/
import proofs.«119798_j19610820674005_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mixer

open Cert.KernelIdeal Cert.KernelIdeal.Gen Idealize.ShloMosaic Idealize.ShloMosaic.ValueIdx

/-! ## The first layer's product: [5000, 128] × [128, 256], contracting the 128 -/

theorem lhsA_0 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhsA_1 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
theorem rhsA_0 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
theorem rhsA_1 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, k) of the product into a zero accumulator: the sum over the 128 contracted positions. -/
theorem firstProduct_apply (l : FVec Ideal S5000x128 .bf16) (r : FVec Ideal S128x256 .bf16) (p : Fin 5000) (k : Fin 256) :
    matmul (F := Ideal) dot_S5000x128_S128x256_S5000x256_1_0_0_1_n_n none l r (constant (F := Ideal) S5000x256 .f32 0x00000000#32) (ix2 p k)
      = ∑ d : Fin 128, l (ix2 p d) * r (ix2 d k) := by
  simp only [matmul]
  rw [Ideal.matmul_constant_zero_apply, ← Equiv.sum_comp (contrEquiv1 dot_S5000x128_S128x256_S5000x256_1_0_0_1_n_n 128 rfl rfl).symm]
  refine Finset.sum_congr rfl fun d _ => ?_
  have hd := contrEquiv1_symm_val dot_S5000x128_S128x256_S5000x256_1_0_0_1_n_n 128 rfl rfl d
  have el : dot_S5000x128_S128x256_S5000x256_1_0_0_1_n_n.lhsIdx (ix2 p k) ((contrEquiv1 dot_S5000x128_S128x256_S5000x256_1_0_0_1_n_n 128 rfl rfl).symm d) = ix2 p d := funext fun a => Fin.ext (by
    match a with
    | ⟨0, _⟩ => exact lhsA_0 _ _
    | ⟨1, _⟩ => exact (lhsA_1 _ _).trans hd)
  have er : dot_S5000x128_S128x256_S5000x256_1_0_0_1_n_n.rhsIdx (ix2 p k) ((contrEquiv1 dot_S5000x128_S128x256_S5000x256_1_0_0_1_n_n 128 rfl rfl).symm d) = ix2 d k := funext fun a => Fin.ext (by
    match a with
    | ⟨0, _⟩ => exact (rhsA_0 _ _).trans hd
    | ⟨1, _⟩ => exact rhsA_1 _ _)
  rw [el, er]

/-! ## The second layer's product: [5000, 256] × [256, 128], contracting the 256 -/

theorem lhsB_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsB_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
theorem rhsB_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
theorem rhsB_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the product into a zero accumulator: the sum over the 256 contracted positions. -/
theorem secondProduct_apply (l : FVec Ideal S5000x256 .bf16) (r : FVec Ideal S256x128 .bf16) (p : Fin 5000) (q : Fin 128) :
    matmul (F := Ideal) dot_S5000x256_S256x128_S5000x128_1_0_0_1_n_n none l r (constant (F := Ideal) S5000x128 .f32 0x00000000#32) (ix2 p q)
      = ∑ k : Fin 256, l (ix2 p k) * r (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The stored value at (p, q) -/

/-- A bias of length `b` cast to one row and broadcast over `a` rows reads the bias at the column. -/
theorem biasRow_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

theorem stored_apply (x0 x1 : Vec Ideal S5000x128 .f32) (x2 x3 : Vec Ideal S128x256 .f32) (x4 : Vec Ideal S256 .f32)
    (x5 : Vec Ideal S256x128 .f32) (x6 : Vec Ideal S128 .f32) (p : Fin 5000) (q : Fin 128) :
    k0_pay1 x0 x1 x2 x3 x4 x5 x6 (ix2 p q)
      = ∑ k : Fin 256, max ((∑ d : Fin 128, x0 (ix2 p d) * x2 (ix2 d k) + ∑ d : Fin 128, x1 (ix2 p d) * x3 (ix2 d k)) + x4 (ix1 k))
            (Ideal.ofBits .f32 0x00000000#32) * x5 (ix2 k q) + x6 (ix1 q) := by
  unfold k0_pay1
  simp only [addf_apply, secondProduct_apply, truncf_apply, maximumf_apply, firstProduct_apply, shapeCast_self, broadcast_apply,
    biasRow_apply, Ideal.ofBits_def]

end Cert.KernelIdeal.Mixer

end
-- ==== Proof.KernelValue.lean ====
/-
  From the blocks to the whole array: after the kernel's run the result array is `mlp` of the argument arrays.

  The grid has 20 points. Point `t` holds rows `5000 t … 5000 t + 4999` of the embeddings and of the neighbour mean, and
  the whole of the two weight halves, the two biases and the second layer's weights; it writes back rows
  `5000 t … 5000 t + 4999` of the result. Row `p` of the block is node `5000 t + p`, so what the point stores at (p, q)
  (`stored_apply`) is entry (5000 t + p, q) of `mlp`. Every row `r` lies in the block of point `r / 5000`, so the blocks
  cover the array and the array ends holding `mlp` everywhere.
-/
import proofs.«119798_j19610820674005_1_alg».proof.Proof.Gen.KernelIdeal.Value
import proofs.«119798_j19610820674005_1_alg».proof.Proof.Spec
import proofs.«119798_j19610820674005_1_alg».proof.Proof.KernelPoint
import proofs.«119798_j19610820674005_1_alg».proof.Proof.KernelHost
import Idealize.ShloMosaic.Lib.Pipeline.Value
import Idealize.ShloMosaic.Lib.ValueIdx

noncomputable section

namespace Cert.KernelIdeal.Mixer

open Cert.KernelIdeal Cert.KernelIdeal.Gen Idealize.ShloMosaic Idealize.ShloMosaic.TcCoe Idealize.SL.Sem
open Idealize.ShloMosaic.ValueIdx
open Idealize.ShloMosaic.Pipeline (Dat)
open Cert.NeighborMixer (mlp outAt hiddenUnit upper lower mlp_apply)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The block indices, decided over the 20 points: the two row-blocked inputs and the output sit at block row `t`; every other
    operand is one block, at index zero. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each operand's block at a point, as entries of the argument arrays -/

/-- Row `p` of the embedding block at point `t` is node `5000 t + p`. -/
theorem embRows (c : Dev nD) (t : Fin cfg0.N) (p : Fin 5000) (d : Fin 128) (hr : 5000 * t.val + p.val < 100000) :
    (iblk m c 0 t : Vec Ideal S5000x128 .f32) (ix2 p d)
      = (m ((c : Thread nD τ).loc main_arg0) : S100000x128.Idx → EReal) (ix2 (⟨5000 * t.val + p.val, hr⟩ : Fin 100000) d) := by
  obtain ⟨e0, e1, -⟩ := blockIndex t
  show V m c main_arg0 (((cfg0.win 0).blk t).view.emb (ix2 p d)) = _
  rw [V_main_arg0]
  refine congrArg (m ((c : Thread nD τ).loc main_arg0) : S100000x128.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * d.val = d.val; rw [e1]; omega

/-- Row `p` of the block that the second operand's window cuts at point `t` out of ANY array of node rows is row `5000 t + p` of
    that array. -/
theorem meanWindow_read (A : S100000x128.Idx → EReal) (t : Fin cfg0.N) (p : Fin 5000) (d : Fin 128) (hr : 5000 * t.val + p.val < 100000) :
    ((cfg0.win 1).blk t).view.read (Elt Ideal) A (ix2 p d) = A (ix2 (⟨5000 * t.val + p.val, hr⟩ : Fin 100000) d) := by
  obtain ⟨-, -, e0, e1, -⟩ := blockIndex t
  show A (((cfg0.win 1).blk t).view.emb (ix2 p d)) = _
  refine congrArg A (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * d.val = d.val; rw [e1]; omega

/-- Row `p` of the neighbour-mean block at point `t` is node `5000 t + p`'s neighbour mean. -/
theorem meanRows (c : Dev nD) (t : Fin cfg0.N) (p : Fin 5000) (d : Fin 128) (hr : 5000 * t.val + p.val < 100000) :
    (iblk m c 1 t : Vec Ideal S5000x128 .f32) (ix2 p d)
      = neighborMean (m ((c : Thread nD τ).loc main_arg0)) (m ((c : Thread nD τ).loc main_arg1)) (m ((c : Thread nD τ).loc main_arg2))
          (ix2 (⟨5000 * t.val + p.val, hr⟩ : Fin 100000) d) := by
  unfold iblk
  refine (congrFun (congrArg (((cfg0.win 1).blk t).view.read (Elt Ideal)) (V_neighborMean m c)) (ix2 p d)).trans ?_
  exact meanWindow_read _ t p d hr

/-- The third operand's one block is the upper half of the first layer's weights. -/
theorem upperWeights (c : Dev nD) (t : Fin cfg0.N) (d : Fin 128) (k : Fin 256) :
    (iblk m c 2 t : Vec Ideal S128x256 .f32) (ix2 d k)
      = (m ((c : Thread nD τ).loc main_arg3) : S256x256.Idx → EReal) (ix2 (upper d) k) := by
  obtain ⟨-, -, -, -, e0, e1, -⟩ := blockIndex t
  show V m c main_v23 (((cfg0.win 2).blk t).view.emb (ix2 d k)) = _
  rw [V_upperHalf]
  have he : ((cfg0.win 2).blk t).view.emb (ix2 d k) = ix2 d k := funext fun a => Fin.ext (by
    match a with
    | ⟨0, _⟩ => show win0_2.index t (0 : Fin 2) * 128 + 1 * d.val = d.val; rw [e0]; omega
    | ⟨1, _⟩ => show win0_2.index t (1 : Fin 2) * 256 + 1 * k.val = k.val; rw [e1]; omega)
  rw [he]
  exact upperHalf_apply _ d k

/-- The fourth operand's one block is the lower half. -/
theorem lowerWeights (c : Dev nD) (t : Fin cfg0.N) (d : Fin 128) (k : Fin 256) :
    (iblk m c 3 t : Vec Ideal S128x256 .f32) (ix2 d k)
      = (m ((c : Thread nD τ).loc main_arg3) : S256x256.Idx → EReal) (ix2 (lower d) k) := by
  obtain ⟨-, -, -, -, -, -, e0, e1, -⟩ := blockIndex t
  show V m c main_v24 (((cfg0.win 3).blk t).view.emb (ix2 d k)) = _
  rw [V_lowerHalf]
  have he : ((cfg0.win 3).blk t).view.emb (ix2 d k) = ix2 d k := funext fun a => Fin.ext (by
    match a with
    | ⟨0, _⟩ => show win0_3.index t (0 : Fin 2) * 128 + 1 * d.val = d.val; rw [e0]; omega
    | ⟨1, _⟩ => show win0_3.index t (1 : Fin 2) * 256 + 1 * k.val = k.val; rw [e1]; omega)
  rw [he]
  exact lowerHalf_apply _ d k

/-- The first bias, whole. -/
theorem firstBias (c : Dev nD) (t : Fin cfg0.N) (k : Fin 256) :
    (iblk m c 4 t : Vec Ideal S256 .f32) (ix1 k) = (m ((c : Thread nD τ).loc main_arg4) : S256.Idx → EReal) (ix1 k) := by
  obtain ⟨-, -, -, -, -, -, -, -, e0, -⟩ := blockIndex t
  show V m c main_arg4 (((cfg0.win 4).blk t).view.emb (ix1 k)) = _
  rw [V_main_arg4]
  refine congrArg (m ((c : Thread nD τ).loc main_arg4) : S256.Idx → EReal) (funext fun a => Fin.ext ?_)
  match a with
  | ⟨0, _⟩ => show win0_4.index t (0 : Fin 1) * 256 + 1 * k.val = k.val; rw [e0]; omega

/-- The second layer's weights, whole. -/
theorem secondWeights (c : Dev nD) (t : Fin cfg0.N) (k : Fin 256) (q : Fin 128) :
    (iblk m c 5 t : Vec Ideal S256x128 .f32) (ix2 k q) = (m ((c : Thread nD τ).loc main_arg5) : S256x128.Idx → EReal) (ix2 k q) := by
  obtain ⟨-, -, -, -, -, -, -, -, -, e0, e1, -⟩ := blockIndex t
  show V m c main_arg5 (((cfg0.win 5).blk t).view.emb (ix2 k q)) = _
  rw [V_main_arg5]
  refine congrArg (m ((c : Thread nD τ).loc main_arg5) : S256x128.Idx → EReal) (funext fun a => Fin.ext ?_)
  match a with
  | ⟨0, _⟩ => show win0_5.index t (0 : Fin 2) * 256 + 1 * k.val = k.val; rw [e0]; omega
  | ⟨1, _⟩ => show win0_5.index t (1 : Fin 2) * 128 + 1 * q.val = q.val; rw [e1]; omega

/-- The second bias, whole. -/
theorem secondBias (c : Dev nD) (t : Fin cfg0.N) (q : Fin 128) :
    (iblk m c 6 t : Vec Ideal S128 .f32) (ix1 q) = (m ((c : Thread nD τ).loc main_arg6) : S128.Idx → EReal) (ix1 q) := by
  obtain ⟨-, -, -, -, -, -, -, -, -, -, -, e0, -⟩ := blockIndex t
  show V m c main_arg6 (((cfg0.win 6).blk t).view.emb (ix1 q)) = _
  rw [V_main_arg6]
  refine congrArg (m ((c : Thread nD τ).loc main_arg6) : S128.Idx → EReal) (funext fun a => Fin.ext ?_)
  match a with
  | ⟨0, _⟩ => show win0_6.index t (0 : Fin 1) * 128 + 1 * q.val = q.val; rw [e0]; omega

/-! ## The result array -/

/-- What the result array ends holding: the node-wise network of the arguments and of the host's neighbour mean. -/
abbrev result (c : Dev nD) : S100000x128.Idx → EReal :=
  mlp (m ((c : Thread nD τ).loc main_arg0))
    (neighborMean (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6))

/-- What point `t` writes back is block `t` of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zeros2]
  simp only [View.ld_unit_zero (S := S5000x128) zeros2, View.ld_unit_zero (S := S128x256) zeros2, View.ld_unit_zero (S := S256) zeros1,
    View.ld_unit_zero (S := S256x128) zeros2, View.ld_unit_zero (S := S128) zeros1]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hr : 5000 * t.val + p.val < 100000 := by have := p.isLt; omega
  obtain ⟨-, -, -, -, -, -, -, -, -, -, -, -, e0, e1⟩ := blockIndex t
  show k0_pay1 (iblk m c 0 t) (iblk m c 1 t) (iblk m c 2 t) (iblk m c 3 t) (iblk m c 4 t) (iblk m c 5 t) (iblk m c 6 t) (ix2 p q)
      = result m c (((cfg0.win 7).blk t).view.emb (ix2 p q))
  have he : ((cfg0.win 7).blk t).view.emb (ix2 p q) = ix2 (⟨5000 * t.val + p.val, hr⟩ : Fin 100000) q := funext fun a => Fin.ext (by
    match a with
    | ⟨0, _⟩ => show win0_7.index t (0 : Fin 2) * 5000 + 1 * p.val = 5000 * t.val + p.val; rw [e0]; omega
    | ⟨1, _⟩ => show win0_7.index t (1 : Fin 2) * 128 + 1 * q.val = q.val; rw [e1]; omega)
  rw [he]
  refine (stored_apply _ _ _ _ _ _ _ p q).trans ?_
  show _ = outAt _ _ _ _ _ _ (⟨5000 * t.val + p.val, hr⟩ : Fin 100000) q
  unfold outAt hiddenUnit
  simp only [fun d => embRows m c t p d hr, fun d => meanRows m c t p d hr, upperWeights m c t, lowerWeights m c t, firstBias m c t,
    secondWeights m c t, secondBias m c t]

/-- An index of the array is in point `t`'s block iff each coordinate is in the block's range on its axis. -/
theorem mem_block (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v25).slice (win0_7.rect t)).set ↔ _
  rw [View.set_slice_whole, Rect.mem_set_unit]
  exact Iff.rfl

/-- Row `r` is in the block of point `r / 5000`: the blocks cover the array. -/
theorem covered (i : S100000x128.Idx) : ∃ t : Fin cfg0.N, (cfg0.win 7).flush t = true ∧ i ∈ ((cfg0.win 7).blk t).view.set := by
  have hN : cfg0.N = 20 := N_0
  have hi0 : (i 0).val < 100000 := idx2_lt0 i
  have hi1 : (i 1).val < 128 := idx2_lt1 i
  have htN : (i 0).val / 5000 < cfg0.N := by rw [hN]; omega
  obtain ⟨-, -, -, -, -, -, -, -, -, -, -, -, e0, e1⟩ := blockIndex ⟨(i 0).val / 5000, htN⟩
  refine ⟨⟨(i 0).val / 5000, htN⟩, flush0_7 _, ?_⟩
  rw [mem_block]
  intro a
  match a with
  | ⟨0, _⟩ =>
    show win0_7.index ⟨(i 0).val / 5000, htN⟩ (0 : Fin 2) * 5000 ≤ (i 0).val ∧ (i 0).val < win0_7.index ⟨(i 0).val / 5000, htN⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, htN⟩ (1 : Fin 2) * 128 ≤ (i 1).val ∧ (i 1).val < win0_7.index ⟨(i 0).val / 5000, htN⟩ (1 : Fin 2) * 128 + 128
    rw [e1]; omega

/-- So after the run the result array is `result`. -/
theorem final (c : Dev nD) : (dats m 0 c).arrAt 7 cfg0.N = result m c :=
  (dats m 0 c).arrAt_eq_of_cover 7 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Mixer

end
-- ==== Proof.RefValue.lean ====
/-
  The reference's result, index by index, is the node-wise network `mlp` of the specification.

  The reference joins each node's embedding row and neighbour-mean row into one row of 256 entries, multiplies by the whole
  first-layer matrix, adds the bias, clamps at zero, multiplies by the second layer and adds its bias. Entry (r, q) of the
  result is therefore `Σ_k max (Σ_{j<256} cat(r,j) · w1(j,k) + b1 k) 0 · w2(k,q) + b2 q`; the inner sum over the joined row splits
  into its first and last 128 terms (`joined_eq_halves`), which is the form of the specification. The neighbour mean itself
  is the stage `val_main_v22` of the reference's run and is not opened.
-/
import proofs.«119798_j19610820674005_1_alg».proof.Proof.ReadPatched
import proofs.«119798_j19610820674005_1_alg».proof.Proof.Spec
import Idealize.ShloMosaic.Lib.Pipeline.Value
import Idealize.ShloMosaic.Lib.ValueIdx

noncomputable section

namespace Cert.ReferenceIdeal.Mixer

open Cert.ReferenceIdeal Cert.ReferenceIdeal.Gen Cert.ReferenceIdeal.ReadP Idealize.ShloMosaic Idealize.ShloMosaic.ValueIdx
open Cert.NeighborMixer (mlp outAt hiddenUnit upper lower joined_eq_halves mlp_apply)

/-- The joined row at one of its first 128 positions is the first piece's entry. -/
theorem joinedRow_upper (a b : (⟨S100000x128, .f32⟩ : BufTy).Contents (Elt Ideal)) (r : Fin 100000) (d : Fin 128) :
    concatenate S100000x256 1 [⟨S100000x128, a⟩, ⟨S100000x128, b⟩] concatenates_S100000x128_S100000x128_S100000x256_d1 (ix2 r (upper d))
      = a (ix2 r d) :=
  concatenate_pair_apply_left (1 : Fin S100000x256.rank) a b _ (ix2 r (upper d)) rfl (ix2 r d) fun ax => by
    match ax with
    | ⟨0, _⟩ => rfl
    | ⟨1, _⟩ => rfl

/-- The joined row at one of its last 128 positions is the second piece's entry, 128 places back. -/
theorem joinedRow_lower (a b : (⟨S100000x128, .f32⟩ : BufTy).Contents (Elt Ideal)) (r : Fin 100000) (d : Fin 128) :
    concatenate S100000x256 1 [⟨S100000x128, a⟩, ⟨S100000x128, b⟩] concatenates_S100000x128_S100000x128_S100000x256_d1 (ix2 r (lower d))
      = b (ix2 r d) :=
  concatenate_pair_apply_right (1 : Fin S100000x256.rank) a b _ (ix2 r (lower d)) rfl rfl (ix2 r d)
    (fun ax hax => by
      match ax with
      | ⟨0, _⟩ => rfl
      | ⟨1, _⟩ => exact absurd rfl hax)
    (by show d.val + 128 = 128 + d.val; omega)

variable (x0 : (⟨S100000x128, .f32⟩ : BufTy).Contents (Elt Ideal)) (x1 x2 : (⟨S1600000, .i32⟩ : BufTy).Contents (Elt Ideal))
  (x3 : (⟨S256x256, .f32⟩ : BufTy).Contents (Elt Ideal)) (x4 : (⟨S256, .f32⟩ : BufTy).Contents (Elt Ideal))
  (x5 : (⟨S256x128, .f32⟩ : BufTy).Contents (Elt Ideal)) (x6 : (⟨S128, .f32⟩ : BufTy).Contents (Elt Ideal))

/-- The reference's clamped hidden layer at (r, k) is the specification's hidden unit, the neighbour mean being the run's own stage. -/
theorem hidden_eq (r : Fin 100000) (k : Fin 256) :
    val_main_v28 (F := Ideal) x0 x1 x2 x3 x4 (ix2 r k) = hiddenUnit x0 (val_main_v22 (F := Ideal) x0 x1 x2) x3 x4 r k := by
  have el : ∀ j : Fin 256, lidx_main_v24 (ix2 r k) j = ix2 r j := fun j => funext fun a => Fin.ext (by
    match a with | ⟨0, _⟩ => rfl | ⟨1, _⟩ => rfl)
  have er : ∀ j : Fin 256, ridx_main_v24 (ix2 r k) j = ix2 j k := fun j => funext fun a => Fin.ext (by
    match a with | ⟨0, _⟩ => rfl | ⟨1, _⟩ => rfl)
  have eb : idx_main_v25 (idx_main_v26 (ix2 r k)) = ix1 k := funext fun a => Fin.ext (by
    match a with | ⟨0, _⟩ => rfl)
  rw [val_main_v28_apply, val_main_v27_apply, val_main_v24_apply, val_main_v26_apply, val_main_v25_apply,
    val_main_call1_v0_apply, val_main_call1_cst_apply]
  simp only [el, er, eb, Ideal.addf_def, Ideal.maximumf_def, Ideal.ofBits_def]
  unfold hiddenUnit
  rw [← joined_eq_halves x0 (val_main_v22 (F := Ideal) x0 x1 x2) x3 r k (fun j => val_main_v23 (F := Ideal) x0 x1 x2 (ix2 r j))
    (fun d => joinedRow_upper x0 _ r d) (fun d => joinedRow_lower x0 _ r d)]

/-- The reference's result is `mlp` of the arguments and of the run's neighbour mean. -/
theorem result_eq :
    val_main_v32 (F := Ideal) x0 x1 x2 x3 x4 x5 x6 = mlp x0 (val_main_v22 (F := Ideal) x0 x1 x2) x3 x4 x5 x6 := by
  funext i
  obtain ⟨r, q, rfl⟩ : ∃ (r : Fin 100000) (q : Fin 128), i = ix2 r q := ⟨i 0, i 1, eq_ix2 i⟩
  have el : ∀ k : Fin 256, lidx_main_v29 (ix2 r q) k = ix2 r k := fun k => funext fun a => Fin.ext (by
    match a with | ⟨0, _⟩ => rfl | ⟨1, _⟩ => rfl)
  have er : ∀ k : Fin 256, ridx_main_v29 (ix2 r q) k = ix2 k q := fun k => funext fun a => Fin.ext (by
    match a with | ⟨0, _⟩ => rfl | ⟨1, _⟩ => rfl)
  have eb : idx_main_v30 (idx_main_v31 (ix2 r q)) = ix1 q := funext fun a => Fin.ext (by
    match a with | ⟨0, _⟩ => rfl)
  rw [mlp_apply, val_main_v32_apply, val_main_v29_apply, val_main_v31_apply, val_main_v30_apply]
  simp only [el, er, eb, Ideal.addf_def, hidden_eq]
  rfl

end Cert.ReferenceIdeal.Mixer

end
-- ==== Proof.lean ====
/-
  The certificate of the neighbour mixer's node-wise network: the Pallas kernel against its jnp reference, on the extended reals.

  Both programs first compute, on the host and by the same operations, each node's NEIGHBOUR MEAN (the mean of the embeddings of
  the sources of the edges that end at the node; the node's own embedding where no edge does). Then
    * the reference joins embedding and neighbour mean into rows of 256 entries and applies
      `relu (cat · W1 + b1) · W2 + b2`;
    * the kernel, over 20 blocks of 5000 nodes, multiplies the embedding block by the upper half of `W1` and the neighbour-mean
      block by the lower half, adds the two products and the bias, clamps at zero, multiplies by `W2` and adds `b2`.
  On the extended reals the kernel's changes of float format are the identity and every matrix product is the plain sum of
  products, so both results are the function `Cert.NeighborMixer.mlp` of the arguments and of the neighbour mean: for the kernel
  block by block (Proof/KernelPoint.lean, Proof/KernelValue.lean), for the reference because a sum over the 256 joined entries is
  the sum over the first 128 plus the sum over the last 128 (Proof/Spec.lean, Proof/RefValue.lean). Only commutativity and
  associativity of addition are used, which hold at the infinities too: the finiteness of the inputs is never needed. The two
  programs' neighbour means are one term, written with each program's own names for the same shapes and dimension records
  (`neighborMean_eq`).

  The frames of the two kernels are the generated ones; the reference's frame is its run with the result dropped; the
  idealization rewrote nothing, so there is nothing to preserve.
-/
import proofs.«119798_j19610820674005_1_alg».proof.Defs
import proofs.«119798_j19610820674005_1_alg».proof.Proof.Gen.Kernel
import proofs.«119798_j19610820674005_1_alg».proof.Proof.Gen.Kernel.Frame
import proofs.«119798_j19610820674005_1_alg».proof.Proof.Gen.KernelIdeal
import proofs.«119798_j19610820674005_1_alg».proof.Proof.Gen.KernelIdeal.Frame
import proofs.«119798_j19610820674005_1_alg».proof.Proof.Gen.KernelIdeal.Value
import proofs.«119798_j19610820674005_1_alg».proof.Proof.Gen.ReferenceIdeal
import proofs.«119798_j19610820674005_1_alg».proof.Proof.Gen.Pre_finite_inputs
import proofs.«119798_j19610820674005_1_alg».proof.Proof.RunPatched
import proofs.«119798_j19610820674005_1_alg».proof.Proof.ReadPatched
import proofs.«119798_j19610820674005_1_alg».proof.Proof.Spec
import proofs.«119798_j19610820674005_1_alg».proof.Proof.KernelHost
import proofs.«119798_j19610820674005_1_alg».proof.Proof.KernelValue
import proofs.«119798_j19610820674005_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program and the reference compute the neighbour mean by the same host operations: the two terms differ only in
    which program's names spell the shapes and the gather and scatter dimension records. -/
theorem neighborMean_eq (emb : (⟨Cert.KernelIdeal.S100000x128, .f32⟩ : BufTy).Contents (Elt Ideal))
    (src dst : (⟨Cert.KernelIdeal.S1600000, .i32⟩ : BufTy).Contents (Elt Ideal)) :
    Cert.ReferenceIdeal.ReadP.val_main_v22 (F := Ideal) emb src dst = Cert.KernelIdeal.Mixer.neighborMean emb src dst := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both runs end with the result array at `mlp` of the arguments and the neighbour mean. -/
theorem algebraic : Cert.algebraic_KernelIdeal_ReferenceIdeal := by
  intro m ρ m' ρ' _ hagree
  refine ⟨fun c => Cert.KernelIdeal.Mixer.result m c, Cert.KernelIdeal.Mixer.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v32_eq, Cert.ReferenceIdeal.Mixer.result_eq, h0, h1, h2, h3, h4, h5, h6, neighborMean_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
